-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S16384x2x20 : Shape := ⟨3, ![16384, 2, 20]⟩
abbrev S1000000x1 : Shape := ⟨2, ![1000000, 1]⟩
abbrev S1000000x64 : Shape := ⟨2, ![1000000, 64]⟩
abbrev S1805x1024 : Shape := ⟨2, ![1805, 1024]⟩
abbrev S1 : Shape := ⟨1, ![1]⟩
abbrev S1024x512 : Shape := ⟨2, ![1024, 512]⟩
abbrev S512x1 : Shape := ⟨2, ![512, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S1805x1024 : S_.BroadcastsInDim S1805x1024 (![] : Fin 0 → Fin S1805x1024.rank)
  reducesTo_S1805x1024_S_d0_1 : S1805x1024.ReducesTo [0, 1] S_
  bcast_S_S1 : S_.BroadcastsInDim S1 (![] : Fin 0 → Fin S1.rank)
  reducesTo_S1_S_d0 : S1.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg9 : FVec F S512x1 .f32) (main_arg10 : FVec F S1 .f32) (main_v33 : IVec S_ 1) : IVec S_ 1 :=
  let main_v34 : FVec F S512x1 .f32 := Host.absf main_arg9
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S1 .f32) (main_arg7 : FVec F S1024x512 .f32) (main_arg8 : FVec F S1 .f32) (main_arg9 : FVec F S512x1 .f32) (main_arg10 : FVec F S1 .f32) (main_v13 : IVec S_ 1) (main_v16 : IVec S1805x1024 1) : IVec S_ 1 :=
  let main_c_5 : IVec S_ 1 := constantI S_ 1 1#1
  let main_v17 : IVec S_ 1 := (fun x v => Host.reduce IntOp.andi x v reducesTo_S1805x1024_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S16384x13 .f32) (main_arg1 : IVec S16384x26 32) (main_arg2 : IVec S16384x2x20 32) (main_arg3 : FVec F S1000000x1 .f32) (main_arg4 : FVec F S1000000x64 .f32) (main_arg5 : FVec F S1805x1024 .f32) (main_arg6 : FVec F S1 .f32) (main_arg7 : FVec F S1024x512 .f32) (main_arg8 : FVec F S1 .f32) (main_arg9 : FVec F S512x1 .f32) (main_arg10 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S1000000x1 .f32 := Host.absf main_arg3
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S1000000x64 .f32 := Host.absf main_arg4
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S1805x1024 .f32 := Host.absf main_arg5
  let main_cst_4 : FVec F S_ .f32 := constant S_ .f32 0x7F800000#32
  let main_v15 : FVec F S1805x1024 .f32 := broadcastInDim S1805x1024 ![] bcast_S_S1805x1024 main_cst_4
  let main_v16 : IVec S1805x1024 1 := cmpf .olt main_v14 main_v15
  fn_part1 (F := F) main_arg6 main_arg7 main_arg8 main_arg9 main_arg10 main_v13 main_v16
-- ==== Kernel.lean ====
abbrev S16384x13 : Shape := ⟨2, ![16384, 13]⟩
abbrev S16384x26 : Shape := ⟨2, ![16384, 26]⟩
abbrev S16384x2x20 : Shape := ⟨3, ![16384, 2, 20]⟩
abbrev S1000000x1 : Shape := ⟨2, ![1000000, 1]⟩
abbrev S1000000x64 : Shape := ⟨2, ![1000000, 64]⟩
abbrev S1805x1024 : Shape := ⟨2, ![1805, 1024]⟩
abbrev S1 : Shape := ⟨1, ![1]⟩
abbrev S1024x512 : Shape := ⟨2, ![1024, 512]⟩
abbrev S512x1 : Shape := ⟨2, ![512, 1]⟩
abbrev S_ : Shape := ⟨0, ![]⟩
abbrev S16384x26x1 : Shape := ⟨3, ![16384, 26, 1]⟩
abbrev S16384x26x64 : Shape := ⟨3, ![16384, 26, 64]⟩
abbrev S16384x2x20x1 : Shape := ⟨4, ![16384, 2, 20, 1]⟩
abbrev S16384x2x20x64 : Shape := ⟨4, ![16384, 2, 20, 64]⟩
abbrev S16384x2x64 : Shape := ⟨3, ![16384, 2, 64]⟩
abbrev S16384x28x64 : Shape := ⟨3, ![16384, 28, 64]⟩
abbrev S16384x1 : Shape := ⟨2, ![16384, 1]⟩
abbrev S16384x1792 : Shape := ⟨2, ![16384, 1792]⟩
abbrev S16384x1805 : Shape := ⟨2, ![16384, 1805]⟩
abbrev S16x1x1024 : Shape := ⟨3, ![16, 1, 1024]⟩
abbrev S1024x28x64 : Shape := ⟨3, ![1024, 28, 64]⟩
abbrev S1024x1805 : Shape := ⟨2, ![1024, 1805]⟩
abbrev S1024x1 : Shape := ⟨2, ![1024, 1]⟩
abbrev S1x1x1024 : Shape := ⟨3, ![1, 1, 1024]⟩
abbrev S1024x64 : Shape := ⟨2, ![1024, 64]⟩
abbrev S1024 : Shape := ⟨1, ![1024]⟩
abbrev S1024x1024 : Shape := ⟨2, ![1024, 1024]⟩
abbrev S1x1 : Shape := ⟨2, ![1, 1]⟩
abbrev S1x1024 : Shape := ⟨2, ![1, 1024]⟩

abbrev nBuf : Space → Nat
  | .hbm => 55
  | .vmem => 14
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S16384x2x20, .i32⟩
  | .hbm, ⟨3, _⟩ => ⟨S1000000x1, .f32⟩
  | .hbm, ⟨4, _⟩ => ⟨S1000000x64, .f32⟩
  | .hbm, ⟨5, _⟩ => ⟨S1805x1024, .f32⟩
  | .hbm, ⟨6, _⟩ => ⟨S1, .f32⟩
  | .hbm, ⟨7, _⟩ => ⟨S1024x512, .f32⟩
  | .hbm, ⟨8, _⟩ => ⟨S1, .f32⟩
  | .hbm, ⟨9, _⟩ => ⟨S512x1, .f32⟩
  | .hbm, ⟨10, _⟩ => ⟨S1, .f32⟩
  | .hbm, ⟨11, _⟩ => ⟨S_, .i32⟩
  | .hbm, ⟨12, _⟩ => ⟨S16384x26, .i32⟩
  | .hbm, ⟨13, _⟩ => ⟨S16384x26, .i1⟩
  | .hbm, ⟨14, _⟩ => ⟨S_, .i32⟩
  | .hbm, ⟨15, _⟩ => ⟨S16384x26, .i32⟩
  | .hbm, ⟨16, _⟩ => ⟨S16384x26, .i32⟩
  | .hbm, ⟨17, _⟩ => ⟨S16384x26, .i32⟩
  | .hbm, ⟨18, _⟩ => ⟨S16384x26x1, .i32⟩
  | .hbm, ⟨19, _⟩ => ⟨S16384x26x64, .f32⟩
  | .hbm, ⟨20, _⟩ => ⟨S_, .i32⟩
  | .hbm, ⟨21, _⟩ => ⟨S16384x2x20, .i32⟩
  | .hbm, ⟨22, _⟩ => ⟨S16384x2x20, .i1⟩
  | .hbm, ⟨23, _⟩ => ⟨S_, .i32⟩
  | .hbm, ⟨24, _⟩ => ⟨S16384x2x20, .i32⟩
  | .hbm, ⟨25, _⟩ => ⟨S16384x2x20, .i32⟩
  | .hbm, ⟨26, _⟩ => ⟨S16384x2x20, .i32⟩
  | .hbm, ⟨27, _⟩ => ⟨S16384x2x20x1, .i32⟩
  | .hbm, ⟨28, _⟩ => ⟨S16384x2x20x64, .f32⟩
  | .hbm, ⟨29, _⟩ => ⟨S_, .f32⟩
  | .hbm, ⟨30, _⟩ => ⟨S16384x2x64, .f32⟩
  | .hbm, ⟨31, _⟩ => ⟨S_, .f32⟩
  | .hbm, ⟨32, _⟩ => ⟨S16384x2x64, .f32⟩
  | .hbm, ⟨33, _⟩ => ⟨S16384x2x64, .f32⟩
  | .hbm, ⟨34, _⟩ => ⟨S16384x28x64, .f32⟩
  | .hbm, ⟨35, _⟩ => ⟨S_, .i32⟩
  | .hbm, ⟨36, _⟩ => ⟨S16384x26, .i32⟩
  | .hbm, ⟨37, _⟩ => ⟨S16384x26, .i1⟩
  | .hbm, ⟨38, _⟩ => ⟨S_, .i32⟩
  | .hbm, ⟨39, _⟩ => ⟨S16384x26, .i32⟩
  | .hbm, ⟨40, _⟩ => ⟨S16384x26, .i32⟩
  | .hbm, ⟨41, _⟩ => ⟨S16384x26, .i32⟩
  | .hbm, ⟨42, _⟩ => ⟨S16384x26x1, .i32⟩
  | .hbm, ⟨43, _⟩ => ⟨S16384x26x1, .f32⟩
  | .hbm, ⟨44, _⟩ => ⟨S_, .f32⟩
  | .hbm, ⟨45, _⟩ => ⟨S16384x1, .f32⟩
  | .hbm, ⟨46, _⟩ => ⟨S16384x28x64, .bf16⟩
  | .hbm, ⟨47, _⟩ => ⟨S16384x1792, .bf16⟩
  | .hbm, ⟨48, _⟩ => ⟨S16384x13, .bf16⟩
  | .hbm, ⟨49, _⟩ => ⟨S16384x1805, .bf16⟩
  | .hbm, ⟨50, _⟩ => ⟨S1805x1024, .bf16⟩
  | .hbm, ⟨51, _⟩ => ⟨S1024x512, .bf16⟩
  | .hbm, ⟨52, _⟩ => ⟨S512x1, .bf16⟩
  | .hbm, ⟨53, _⟩ => ⟨S16x1x1024, .f32⟩
  | .hbm, ⟨54, _⟩ => ⟨S16384x1, .f32⟩
  | .local _ .vmem, ⟨0, _⟩ => ⟨S1024x28x64, .f32⟩
  | .local _ .vmem, ⟨1, _⟩ => ⟨S1024x28x64, .f32⟩
  | .local _ .vmem, ⟨2, _⟩ => ⟨S1024x1805, .bf16⟩
  | .local _ .vmem, ⟨3, _⟩ => ⟨S1024x1805, .bf16⟩
  | .local _ .vmem, ⟨4, _⟩ => ⟨S1024x1, .f32⟩
  | .local _ .vmem, ⟨5, _⟩ => ⟨S1024x1, .f32⟩
  | .local _ .vmem, ⟨6, _⟩ => ⟨S1805x1024, .bf16⟩
  | .local _ .vmem, ⟨7, _⟩ => ⟨S1, .f32⟩
  | .local _ .vmem, ⟨8, _⟩ => ⟨S1024x512, .bf16⟩
  | .local _ .vmem, ⟨9, _⟩ => ⟨S1, .f32⟩
  | .local _ .vmem, ⟨10, _⟩ => ⟨S512x1, .bf16⟩
  | .local _ .vmem, ⟨11, _⟩ => ⟨S1, .f32⟩
  | .local _ .vmem, ⟨12, _⟩ => ⟨S1x1x1024, .f32⟩
  | .local _ .vmem, ⟨13, _⟩ => ⟨S1x1x1024, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x28x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1805 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1805x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x2x20 : S_.BroadcastsInDim S16384x2x20 (![] : Fin 0 → Fin S16384x2x20.rank)
  bcast_S16384x2x20_S16384x2x20x1_0_1_2 : S16384x2x20.BroadcastsInDim S16384x2x20x1 (![0, 1, 2] : Fin 3 → Fin S16384x2x20x1.rank)
  reducesTo_S16384x2x20x64_S16384x2x64_d2 : S16384x2x20x64.ReducesTo [2] S16384x2x64
  h_S_ : 0 < S_.numel
  bcast_S_S16384x2x64 : S_.BroadcastsInDim S16384x2x64 (![] : Fin 0 → Fin S16384x2x64.rank)
  concatenates_S16384x26x64_S16384x2x64_S16384x28x64_d1 : Shape.Concatenates [S16384x26x64, S16384x2x64] S16384x28x64 1
  reducesTo_S16384x26x1_S16384x1_d1 : S16384x26x1.ReducesTo [1] S16384x1
  bitsLt_bf16_f32 : FTy.bits .bf16 < FTy.bits .f32
  shapeCasts_S16384x28x64_S16384x1792 : S16384x28x64.ShapeCasts S16384x1792
  concatenates_S16384x1792_S16384x13_S16384x1805_d1 : Shape.Concatenates [S16384x1792, S16384x13] S16384x1805 1
  inb_S1024x28x64_S1024x28x64_0_0_0 : ∀ a, (![0, 0, 0] : Fin 3 → Nat) a + S1024x28x64.size a ≤ S1024x28x64.size a
  h_S1024x28x64 : 0 < S1024x28x64.numel
  shapeCasts_S1024x28x64_S1024x28x64 : S1024x28x64.ShapeCasts S1024x28x64
  reduces_S1024x28x64_S1024x64 : S1024x28x64.Reduces [1] S1024x64
  reduces_S1024x64_S1024 : S1024x64.Reduces [1] S1024
  shapeCasts_S1024_S1024x1 : S1024.ShapeCasts S1024x1
  inb_S1024x1805_S1024x1805_0_0 : ∀ a, (![0, 0] : Fin 2 → Nat) a + S1024x1805.size a ≤ S1024x1805.size a
  h_S1024x1805 : 0 < S1024x1805.numel
  shapeCasts_S1024x1805_S1024x1805 : S1024x1805.ShapeCasts S1024x1805
  inb_S1805x1024_S1805x1024_0_0 : ∀ a, (![0, 0] : Fin 2 → Nat) a + S1805x1024.size a ≤ S1805x1024.size a
  h_S1805x1024 : 0 < S1805x1024.numel
  shapeCasts_S1805x1024_S1805x1024 : S1805x1024.ShapeCasts S1805x1024
  inb_S1_S1_0 : ∀ a, (![0] : Fin 1 → Nat) a + S1.size a ≤ S1.size a
  h_S1 : 0 < S1.numel
  shapeCasts_S1_S1x1 : S1.ShapeCasts S1x1
  broadcasts_S1x1_S1024x1024 : S1x1.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x1_S1024x512 : S1x1.Broadcasts S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x1024_S16384x1 : S16x1x1024.ShapeCasts S16384x1
  gather_S1000000x64_S16384x26x1_S16384x26x64_2_0_n_n_0_2_164_wf : GatherDims.WF S1000000x64 S16384x26x1 S16384x26x64 [2] [0] [] [0] [] 2 ![1, 64]
  gather_S1000000x64_S16384x2x20x1_S16384x2x20x64_3_0_n_n_0_3_164_wf : GatherDims.WF S1000000x64 S16384x2x20x1 S16384x2x20x64 [3] [0] [] [0] [] 3 ![1, 64]
  gather_S1000000x1_S16384x26x1_S16384x26x1_2_0_n_n_0_2_11_wf : GatherDims.WF S1000000x1 S16384x26x1 S16384x26x1 [2] [0] [] [0] [] 2 ![1, 1]
  dot_S1024x1805_S1805x1024_S1024x1024_1_0_0_1_n_n_wf : DotDims.WF S1024x1805 S1805x1024 S1024x1024 [1] [0] [0] [1] [] []
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x28x64.size a ≤ S16384x28x64.size a
  hwx0_0 : ∀ i : grid0.Coords, EltTy.bits .f32 = 32 ∨ (Rect.block (s := S16384x28x64) S1024x28x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1805.size a ≤ S16384x1805.size a
  hwx0_1 : ∀ i : grid0.Coords, EltTy.bits .bf16 = 32 ∨ (Rect.block (s := S16384x1805) S1024x1805.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1805x1024.size a ≤ S1805x1024.size a
  hwx0_3 : ∀ i : grid0.Coords, EltTy.bits .bf16 = 32 ∨ (Rect.block (s := S1805x1024) S1805x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .bf16 = 32 ∨ (Rect.block (s := S512x1) S512x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S16x1x1024.size a
  hwx0_9 : ∀ i : grid0.Coords, EltTy.bits .f32 = 32 ∨ (Rect.block (s := S16x1x1024) S1x1x1024.size (cc0_transform_9 i) (hinb0_9 i)).WholeWords (EltTy.packing .f32)

variable [Facts₀]

def gather_S1000000x64_S16384x26x1_S16384x26x64_2_0_n_n_0_2_164 : GatherDims S1000000x64 S16384x26x1 S16384x26x64 where
  offsetDims := [2]
  collapsedSliceDims := [0]
  operandBatchingDims := []
  startIndicesBatchingDims := []
  startIndexMap := [0]
  indexVectorDim := 2
  sliceSizes := ![1, 64]
  wf := gather_S1000000x64_S16384x26x1_S16384x26x64_2_0_n_n_0_2_164_wf
def gather_S1000000x64_S16384x2x20x1_S16384x2x20x64_3_0_n_n_0_3_164 : GatherDims S1000000x64 S16384x2x20x1 S16384x2x20x64 where
  offsetDims := [3]
  collapsedSliceDims := [0]
  operandBatchingDims := []
  startIndicesBatchingDims := []
  startIndexMap := [0]
  indexVectorDim := 3
  sliceSizes := ![1, 64]
  wf := gather_S1000000x64_S16384x2x20x1_S16384x2x20x64_3_0_n_n_0_3_164_wf
def gather_S1000000x1_S16384x26x1_S16384x26x1_2_0_n_n_0_2_11 : GatherDims S1000000x1 S16384x26x1 S16384x26x1 where
  offsetDims := [2]
  collapsedSliceDims := [0]
  operandBatchingDims := []
  startIndicesBatchingDims := []
  startIndexMap := [0]
  indexVectorDim := 2
  sliceSizes := ![1, 1]
  wf := gather_S1000000x1_S16384x26x1_S16384x26x1_2_0_n_n_0_2_11_wf
def dot_S1024x1805_S1805x1024_S1024x1024_1_0_0_1_n_n : DotDims S1024x1805 S1805x1024 S1024x1024 where
  lhsContracting := [1]
  rhsContracting := [0]
  lhsNonContracting := [0]
  rhsNonContracting := [1]
  lhsBatch := []
  rhsBatch := []
  wf := dot_S1024x1805_S1805x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v17) S1024x28x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x1805.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1805x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S16384x2x20 : Shape := ⟨3, ![16384, 2, 20]⟩
abbrev S1000000x1 : Shape := ⟨2, ![1000000, 1]⟩
abbrev S1000000x64 : Shape := ⟨2, ![1000000, 64]⟩
abbrev S1805x1024 : Shape := ⟨2, ![1805, 1024]⟩
abbrev S1 : Shape := ⟨1, ![1]⟩
abbrev S1024x512 : Shape := ⟨2, ![1024, 512]⟩
abbrev S512x1 : Shape := ⟨2, ![512, 1]⟩
abbrev S_ : Shape := ⟨0, ![]⟩
abbrev S16384x26x1 : Shape := ⟨3, ![16384, 26, 1]⟩
abbrev S16384x26x64 : Shape := ⟨3, ![16384, 26, 64]⟩
abbrev S16384x2x20x1 : Shape := ⟨4, ![16384, 2, 20, 1]⟩
abbrev S16384x2x20x64 : Shape := ⟨4, ![16384, 2, 20, 64]⟩
abbrev S16384x2x64 : Shape := ⟨3, ![16384, 2, 64]⟩
abbrev S16384x28x64 : Shape := ⟨3, ![16384, 28, 64]⟩
abbrev S16384x1 : Shape := ⟨2, ![16384, 1]⟩
abbrev S16384x64 : Shape := ⟨2, ![16384, 64]⟩
abbrev S16384 : Shape := ⟨1, ![16384]⟩
abbrev S16384x1792 : Shape := ⟨2, ![16384, 1792]⟩
abbrev S16384x1805 : Shape := ⟨2, ![16384, 1805]⟩
abbrev S16384x1024 : Shape := ⟨2, ![16384, 1024]⟩
abbrev S1x1 : Shape := ⟨2, ![1, 1]⟩
abbrev S16384x512 : Shape := ⟨2, ![16384, 512]⟩

abbrev nBuf : Space → Nat
  | .hbm => 92
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S16384x2x20, .i32⟩
  | .hbm, ⟨3, _⟩ => ⟨S1000000x1, .f32⟩
  | .hbm, ⟨4, _⟩ => ⟨S1000000x64, .f32⟩
  | .hbm, ⟨5, _⟩ => ⟨S1805x1024, .f32⟩
  | .hbm, ⟨6, _⟩ => ⟨S1, .f32⟩
  | .hbm, ⟨7, _⟩ => ⟨S1024x512, .f32⟩
  | .hbm, ⟨8, _⟩ => ⟨S1, .f32⟩
  | .hbm, ⟨9, _⟩ => ⟨S512x1, .f32⟩
  | .hbm, ⟨10, _⟩ => ⟨S1, .f32⟩
  | .hbm, ⟨11, _⟩ => ⟨S_, .i32⟩
  | .hbm, ⟨12, _⟩ => ⟨S16384x26, .i32⟩
  | .hbm, ⟨13, _⟩ => ⟨S16384x26, .i1⟩
  | .hbm, ⟨14, _⟩ => ⟨S_, .i32⟩
  | .hbm, ⟨15, _⟩ => ⟨S16384x26, .i32⟩
  | .hbm, ⟨16, _⟩ => ⟨S16384x26, .i32⟩
  | .hbm, ⟨17, _⟩ => ⟨S16384x26, .i32⟩
  | .hbm, ⟨18, _⟩ => ⟨S16384x26x1, .i32⟩
  | .hbm, ⟨19, _⟩ => ⟨S16384x26x64, .f32⟩
  | .hbm, ⟨20, _⟩ => ⟨S_, .i32⟩
  | .hbm, ⟨21, _⟩ => ⟨S16384x2x20, .i32⟩
  | .hbm, ⟨22, _⟩ => ⟨S16384x2x20, .i1⟩
  | .hbm, ⟨23, _⟩ => ⟨S_, .i32⟩
  | .hbm, ⟨24, _⟩ => ⟨S16384x2x20, .i32⟩
  | .hbm, ⟨25, _⟩ => ⟨S16384x2x20, .i32⟩
  | .hbm, ⟨26, _⟩ => ⟨S16384x2x20, .i32⟩
  | .hbm, ⟨27, _⟩ => ⟨S16384x2x20x1, .i32⟩
  | .hbm, ⟨28, _⟩ => ⟨S16384x2x20x64, .f32⟩
  | .hbm, ⟨29, _⟩ => ⟨S_, .f32⟩
  | .hbm, ⟨30, _⟩ => ⟨S16384x2x64, .f32⟩
  | .hbm, ⟨31, _⟩ => ⟨S_, .f32⟩
  | .hbm, ⟨32, _⟩ => ⟨S16384x2x64, .f32⟩
  | .hbm, ⟨33, _⟩ => ⟨S16384x2x64, .f32⟩
  | .hbm, ⟨34, _⟩ => ⟨S16384x28x64, .f32⟩
  | .hbm, ⟨35, _⟩ => ⟨S_, .i32⟩
  | .hbm, ⟨36, _⟩ => ⟨S16384x26, .i32⟩
  | .hbm, ⟨37, _⟩ => ⟨S16384x26, .i1⟩
  | .hbm, ⟨38, _⟩ => ⟨S_, .i32⟩
  | .hbm, ⟨39, _⟩ => ⟨S16384x26, .i32⟩
  | .hbm, ⟨40, _⟩ => ⟨S16384x26, .i32⟩
  | .hbm, ⟨41, _⟩ => ⟨S16384x26, .i32⟩
  | .hbm, ⟨42, _⟩ => ⟨S16384x26x1, .i32⟩
  | .hbm, ⟨43, _⟩ => ⟨S16384x26x1, .f32⟩
  | .hbm, ⟨44, _⟩ => ⟨S_, .f32⟩
  | .hbm, ⟨45, _⟩ => ⟨S16384x1, .f32⟩
  | .hbm, ⟨46, _⟩ => ⟨S_, .f32⟩
  | .hbm, ⟨47, _⟩ => ⟨S16384x64, .f32⟩
  | .hbm, ⟨48, _⟩ => ⟨S16384x64, .f32⟩
  | .hbm, ⟨49, _⟩ => ⟨S16384x28x64, .f32⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1792, .f32⟩
  | .hbm, ⟨60, _⟩ => ⟨S16384x1805, .f32⟩
  | .hbm, ⟨61, _⟩ => ⟨S16384x1024, .f32⟩
  | .hbm, ⟨62, _⟩ => ⟨S1x1, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x512, .f32⟩
  | .hbm, ⟨69, _⟩ => ⟨S1x1, .f32⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384x512, .f32⟩
  | .hbm, ⟨74, _⟩ => ⟨S16384x512, .f32⟩
  | .hbm, ⟨75, _⟩ => ⟨S16384x1, .f32⟩
  | .hbm, ⟨76, _⟩ => ⟨S1x1, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x2x20 : S_.BroadcastsInDim S16384x2x20 (![] : Fin 0 → Fin S16384x2x20.rank)
  bcast_S16384x2x20_S16384x2x20x1_0_1_2 : S16384x2x20.BroadcastsInDim S16384x2x20x1 (![0, 1, 2] : Fin 3 → Fin S16384x2x20x1.rank)
  reducesTo_S16384x2x20x64_S16384x2x64_d2 : S16384x2x20x64.ReducesTo [2] S16384x2x64
  h_S_ : 0 < S_.numel
  bcast_S_S16384x2x64 : S_.BroadcastsInDim S16384x2x64 (![] : Fin 0 → Fin S16384x2x64.rank)
  concatenates_S16384x26x64_S16384x2x64_S16384x28x64_d1 : Shape.Concatenates [S16384x26x64, S16384x2x64] S16384x28x64 1
  reducesTo_S16384x26x1_S16384x1_d1 : S16384x26x1.ReducesTo [1] S16384x1
  reducesTo_S16384x28x64_S16384x64_d1 : S16384x28x64.ReducesTo [1] S16384x64
  bcast_S_S16384x64 : S_.BroadcastsInDim S16384x64 (![] : Fin 0 → Fin S16384x64.rank)
  reducesTo_S16384x64_S16384_d1 : S16384x64.ReducesTo [1] S16384
  bcast_S16384_S16384x1_0 : S16384.BroadcastsInDim S16384x1 (![0] : Fin 1 → Fin S16384x1.rank)
  shapeCasts_S16384x28x64_S16384x1792 : S16384x28x64.ShapeCasts S16384x1792
  concatenates_S16384x1792_S16384x13_S16384x1805_d1 : Shape.Concatenates [S16384x1792, S16384x13] S16384x1805 1
  bcast_S1_S1x1_1 : S1.BroadcastsInDim S1x1 (![1] : Fin 1 → Fin S1x1.rank)
  bcast_S1x1_S16384x1024_0_1 : S1x1.BroadcastsInDim S16384x1024 (![0, 1] : Fin 2 → Fin S16384x1024.rank)
  bcast_S_S16384x1024 : S_.BroadcastsInDim S16384x1024 (![] : Fin 0 → Fin S16384x1024.rank)
  bcast_S1x1_S16384x512_0_1 : S1x1.BroadcastsInDim S16384x512 (![0, 1] : Fin 2 → Fin S16384x512.rank)
  bcast_S_S16384x512 : S_.BroadcastsInDim S16384x512 (![] : Fin 0 → Fin S16384x512.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S1000000x64_S16384x26x1_S16384x26x64_2_0_n_n_0_2_164_wf : GatherDims.WF S1000000x64 S16384x26x1 S16384x26x64 [2] [0] [] [0] [] 2 ![1, 64]
  gather_S1000000x64_S16384x2x20x1_S16384x2x20x64_3_0_n_n_0_3_164_wf : GatherDims.WF S1000000x64 S16384x2x20x1 S16384x2x20x64 [3] [0] [] [0] [] 3 ![1, 64]
  gather_S1000000x1_S16384x26x1_S16384x26x1_2_0_n_n_0_2_11_wf : GatherDims.WF S1000000x1 S16384x26x1 S16384x26x1 [2] [0] [] [0] [] 2 ![1, 1]
  dot_S16384x1805_S1805x1024_S16384x1024_1_0_0_1_n_n_wf : DotDims.WF S16384x1805 S1805x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []

variable [Facts₀]

def gather_S1000000x64_S16384x26x1_S16384x26x64_2_0_n_n_0_2_164 : GatherDims S1000000x64 S16384x26x1 S16384x26x64 where
  offsetDims := [2]
  collapsedSliceDims := [0]
  operandBatchingDims := []
  startIndicesBatchingDims := []
  startIndexMap := [0]
  indexVectorDim := 2
  sliceSizes := ![1, 64]
  wf := gather_S1000000x64_S16384x26x1_S16384x26x64_2_0_n_n_0_2_164_wf
def gather_S1000000x64_S16384x2x20x1_S16384x2x20x64_3_0_n_n_0_3_164 : GatherDims S1000000x64 S16384x2x20x1 S16384x2x20x64 where
  offsetDims := [3]
  collapsedSliceDims := [0]
  operandBatchingDims := []
  startIndicesBatchingDims := []
  startIndexMap := [0]
  indexVectorDim := 3
  sliceSizes := ![1, 64]
  wf := gather_S1000000x64_S16384x2x20x1_S16384x2x20x64_3_0_n_n_0_3_164_wf
def gather_S1000000x1_S16384x26x1_S16384x26x1_2_0_n_n_0_2_11 : GatherDims S1000000x1 S16384x26x1 S16384x26x1 where
  offsetDims := [2]
  collapsedSliceDims := [0]
  operandBatchingDims := []
  startIndicesBatchingDims := []
  startIndexMap := [0]
  indexVectorDim := 2
  sliceSizes := ![1, 1]
  wf := gather_S1000000x1_S16384x26x1_S16384x26x1_2_0_n_n_0_2_11_wf
def dot_S16384x1805_S1805x1024_S16384x1024_1_0_0_1_n_n : DotDims S16384x1805 S1805x1024 S16384x1024 where
  lhsContracting := [1]
  rhsContracting := [0]
  lhsNonContracting := [0]
  rhsNonContracting := [1]
  lhsBatch := []
  rhsBatch := []
  wf := dot_S16384x1805_S1805x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Score.lean ====
/-
  One example's score in a factorisation-machine-plus-deep-network model, as a function of that example's data.

  An example has 28 embedding vectors of length 64 (`v n e`), a first-order term `first`, and a feature row `x` of
  length 1805 (the 28·64 embedding entries followed by 13 dense features). Its score is the logistic function of

      (deep x + first) + pair v

  where `pair v = Σ_e ½ · ((Σ_n v n e)² − Σ_n (v n e)²)` is the second-order interaction, and `deep x` is the single
  output of three fully connected layers, each `max (Σ_k x_k · w k j + b) 0` with ONE bias shared by the whole layer.

  Everything is over the extended reals, and nothing below needs finiteness: the two programs compute the same sums of
  the same products, and differ only in how the three summands of the logit are grouped, in starting a sum from an
  explicit zero, and in spelling the logistic function as `1 / (1 + e^(−t))`. Addition on the extended reals is
  commutative and associative, and adding zero changes nothing, at every point including the infinite ones.
-/
import Idealize.ShloMosaic.PureOps.Ideal
import Idealize.ShloMosaic.PureOps.Ideal.Laws
import Idealize.ShloMosaic.Lib.ValueIdx

noncomputable section

namespace Cert.DeepFM

open Idealize.ShloMosaic

/-- The float words the programs write: zero, one half, one. -/
abbrev zeroWord : EReal := Ideal.ofBits .f32 0x00000000#32
abbrev halfWord : EReal := Ideal.ofBits .f32 0x3F000000#32
abbrev oneWord : EReal := Ideal.ofBits .f32 0x3F800000#32

theorem oneWord_eq : oneWord = 1 := by
  simp [oneWord, Ideal.ofBits, Ideal.ieee]
  rw [← EReal.coe_mul, ← EReal.coe_one]
  exact congrArg _ (by norm_num)

/-- One fully connected layer with a shared bias and a rectifier: output `j` is `max (Σ_k x_k · w k j + b) 0`. -/
def layer {K N : ℕ} (x : Fin K → EReal) (w : Fin K → Fin N → EReal) (b : EReal) (j : Fin N) : EReal :=
  max ((∑ k : Fin K, x k * w k j) + b) zeroWord

/-- The deep part: three layers, 1805 → 1024 → 512 → 1. -/
def deep (x : Fin 1805 → EReal) (w0 : Fin 1805 → Fin 1024 → EReal) (b0 : EReal) (w1 : Fin 1024 → Fin 512 → EReal)
    (b1 : EReal) (w2 : Fin 512 → Fin 1 → EReal) (b2 : EReal) : EReal :=
  layer (layer (layer x w0 b0) w1 b1) w2 b2 0

/-- The second-order interaction of an example's 28 embedding vectors: Σ_e ½ · ((Σ_n v n e)² − Σ_n (v n e)²). -/
def pair (v : Fin 28 → Fin 64 → EReal) : EReal :=
  ∑ e : Fin 64, halfWord * ((∑ n : Fin 28, v n e) * (∑ n : Fin 28, v n e) - ∑ n : Fin 28, v n e * v n e)

/-- The example's score: the logistic function of `(deep + first) + pair`. -/
def score (v : Fin 28 → Fin 64 → EReal) (first : EReal) (x : Fin 1805 → EReal) (w0 : Fin 1805 → Fin 1024 → EReal)
    (b0 : EReal) (w1 : Fin 1024 → Fin 512 → EReal) (b1 : EReal) (w2 : Fin 512 → Fin 1 → EReal) (b2 : EReal) : EReal :=
  Ideal.logistic ((deep x w0 b0 w1 b1 w2 b2 + first) + pair v)

/-- The interaction with every sum started from an explicit zero word is the same number. -/
theorem pair_from_zero (v : Fin 28 → Fin 64 → EReal) :
    zeroWord + ∑ e : Fin 64, halfWord * ((zeroWord + ∑ n : Fin 28, v n e) * (zeroWord + ∑ n : Fin 28, v n e)
        - (zeroWord + ∑ n : Fin 28, v n e * v n e)) = pair v := by
  simp only [zeroWord, Ideal.ofBits_zero_f32, zero_add]
  rfl

/-- THE LAW JOINING THE TWO SIDES. The score written the other way round — the three summands grouped as
    `(first + pair) + deep`, the logistic function spelt `1 / (1 + e^(−t))` with the float word for one — is the same
    number: addition on the extended reals is commutative and associative. -/
theorem score_regrouped (v : Fin 28 → Fin 64 → EReal) (first : EReal) (x : Fin 1805 → EReal)
    (w0 : Fin 1805 → Fin 1024 → EReal) (b0 : EReal) (w1 : Fin 1024 → Fin 512 → EReal) (b1 : EReal)
    (w2 : Fin 512 → Fin 1 → EReal) (b2 : EReal) :
    Ideal.div oneWord (oneWord + Ideal.exp (-((first + pair v) + deep x w0 b0 w1 b1 w2 b2)))
      = score v first x w0 b0 w1 b1 w2 b2 := by
  have h : (first + pair v) + deep x w0 b0 w1 b1 w2 b2 = (deep x w0 b0 w1 b1 w2 b2 + first) + pair v := by
    rw [add_comm (first + pair v), add_assoc]
  rw [h, oneWord_eq]
  rfl

end Cert.DeepFM

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«178519_j61761629717133_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.KernelBody.lean ====
/-
  What the kernel body computes from its input blocks, one row of the block at a time.

  Entry `q` of the body's `[1, 1, 1024]` result is the score of the example in row `q` of the block: its embedding
  vectors are row `q` of the embedding block, its first-order term entry `(q, 0)` of the first-order block, its
  feature row is row `q` of the feature block; the weights and the one-entry biases are the whole operands.
-/
import proofs.«178519_j61761629717133_2_alg».proof.Proof.Gen.KernelIdeal.Skeleton
import proofs.«178519_j61761629717133_2_alg».proof.Proof.Score
import proofs.«178519_j61761629717133_2_alg».proof.Proof.LibRowsTimes
import proofs.«178519_j61761629717133_2_alg».proof.Proof.LibKeepdimsSum
import proofs.«178519_j61761629717133_2_alg».proof.Proof.LibPairStack
import Idealize.ShloMosaic.Lib.Pipeline.Value
import Idealize.ShloMosaic.Lib.ValueLayout

noncomputable section

namespace Cert.DeepFM.Body

open Cert.KernelIdeal Cert.KernelIdeal.Gen Idealize.ShloMosaic Idealize.ShloMosaic.ValueIdx

/-- A float sum along the MIDDLE axis of an `[a, b, c]` array from the zero accumulator, read over the extended reals:
    entry `(p, e)` of the result is the finite sum over `n` of the array at `(p, n, e)`. -/
theorem midSum_apply {a b c : ℕ} (src : FVec Ideal (⟨3, ![a, b, c]⟩ : Shape) .f32)
    (h : (⟨3, ![a, b, c]⟩ : Shape).Reduces [1] ⟨2, ![a, c]⟩) (hφ : FKind.Formats .f32)
    (hacc : (0x00000000#32 : BitVec 32) = FKind.add.neutral .f32 hφ) (p : Fin a) (e : Fin c) :
    multiReduction .add [1] ⟨2, ![a, c]⟩ src 0x00000000#32 h hφ hacc (ix2 p e) = ∑ n : Fin b, src (ix3 p n e) := by
  refine (Ideal.multiReduction_add_single src 0x00000000#32 h hφ hacc (ix2 p e)).trans ?_
  refine Finset.sum_congr rfl fun n _ => congrArg src (funext fun d => Fin.ext ?_)
  match d with
  | ⟨0, _⟩ => rfl
  | ⟨1, _⟩ => rfl
  | ⟨2, _⟩ => rfl

/-- The second-order term as the body computes it — both sums over the 28 vectors from the zero accumulator, the
    half of the difference of squares, the sum over the 64 coordinates kept as a column — is `pair` of row `q`. -/
theorem pair_at (x0 : Vec Ideal S1024x28x64 .f32) (q : Fin 1024) (u : Fin 1) :
    k0_pay2 (F := Ideal) x0 (ix2 q u) = Cert.DeepFM.pair (fun n e => x0 (ix3 q n e)) := by
  unfold k0_pay2
  simp only [shapeCast_self]
  refine (Cert.KeepdimsSum.rowSum_column_apply (a := 1024) (b := 64) _ reduces_S1024x64_S1024 (.inl rfl) rfl
    shapeCasts_S1024_S1024x1 q u).trans ?_
  refine Finset.sum_congr rfl fun e _ => ?_
  show Ideal.ofBits .f32 0x3F000000#32 *
      (multiReduction (F := Ideal) .add [1] S1024x64 x0 0x00000000#32 reduces_S1024x28x64_S1024x64 (.inl rfl) rfl (ix2 q e)
          * multiReduction (F := Ideal) .add [1] S1024x64 x0 0x00000000#32 reduces_S1024x28x64_S1024x64 (.inl rfl) rfl (ix2 q e)
        - multiReduction (F := Ideal) .add [1] S1024x64 (mulf x0 x0) 0x00000000#32 reduces_S1024x28x64_S1024x64 (.inl rfl) rfl
            (ix2 q e)) = _
  rw [midSum_apply x0 reduces_S1024x28x64_S1024x64 (.inl rfl) rfl q e,
    midSum_apply (mulf x0 x0) reduces_S1024x28x64_S1024x64 (.inl rfl) rfl q e]
  rfl

/-- One fully connected layer as the body computes it — the matrix unit's product into the zero accumulator, plus the
    one-entry bias stood up as `[1, 1]` and broadcast, the maximum with the zero splat — read at `(q, j)`. -/
theorem layer_at {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (X : FVec Ideal ⟨2, ![M, K]⟩ φ₁) (W : FVec Ideal ⟨2, ![K, N]⟩ φ₂) (b : FVec Ideal S1 .f32)
    (hc : S1.ShapeCasts S1x1) (hb : S1x1.Broadcasts ⟨2, ![M, N]⟩) (q : Fin M) (j : Fin N) :
    maximumf (addf (matmul d none X W (constant ⟨2, ![M, N]⟩ .f32 0x00000000#32))
        (broadcastTo ⟨2, ![M, N]⟩ (shapeCast S1x1 b hc) hb))
      (broadcast ⟨2, ![M, N]⟩ (Scalar.ofBits (F := Ideal) .f32 0x00000000#32)) (ix2 q j)
      = Cert.DeepFM.layer (fun k => X (ix2 q k)) (fun k j => W (ix2 k j)) (b (ix1 (0 : Fin 1))) j := by
  show max (FloatOps.matmul d none X W (constant ⟨2, ![M, N]⟩ .f32 0x00000000#32) (ix2 q j)
      + broadcastTo ⟨2, ![M, N]⟩ (shapeCast S1x1 b hc) hb (ix2 q j)) (Ideal.ofBits .f32 0x00000000#32) = _
  rw [Idealize.ShloMosaic.RowsTimes.matmul_zero_apply d h1 h2 h3 h4 h5 h6 hr hs none X W q j,
    Idealize.ShloMosaic.PairStack.broadcastTo_11_ab_apply (shapeCast S1x1 b hc) hb q j,
    Cert.KeepdimsSum.shapeCast_a_a1_apply b hc (0 : Fin 1) (0 : Fin 1)]
  rfl

/-- The deep part as the body computes it: the third product (into the zero accumulator) of the twice rectified
    layers, plus its bias, rectified, read at `(q, u)`, is `deep` of row `q` of the feature block. -/
theorem deep_at (x1 : Vec Ideal S1024x1805 .bf16) (x3 : Vec Ideal S1805x1024 .bf16) (x4 : Vec Ideal S1 .f32)
    (x5 : Vec Ideal S1024x512 .bf16) (x6 : Vec Ideal S1 .f32) (x7 : Vec Ideal S512x1 .bf16) (x8 : Vec Ideal S1 .f32)
    (q : Fin 1024) (u : Fin 1) :
    maximumf (addf (k0_pay3 (F := Ideal) x1 x3 x4 x5 x6 x7)
        (broadcastTo S1024x1 (shapeCast S1x1 x8 shapeCasts_S1_S1x1) broadcasts_S1x1_S1024x1))
      (broadcast S1024x1 (Scalar.ofBits (F := Ideal) .f32 0x00000000#32)) (ix2 q u)
      = Cert.DeepFM.deep (fun k => x1 (ix2 q k)) (fun k j => x3 (ix2 k j)) (x4 (ix1 (0 : Fin 1)))
          (fun k j => x5 (ix2 k j)) (x6 (ix1 (0 : Fin 1))) (fun k j => x7 (ix2 k j)) (x8 (ix1 (0 : Fin 1))) := by
  have hu : u = 0 := Subsingleton.elim _ _
  subst hu
  unfold k0_pay3
  simp only [shapeCast_self]
  refine (layer_at dot_S1024x512_S512x1_S1024x1_1_0_0_1_n_n rfl rfl rfl rfl rfl rfl rfl rfl _ x7 x8
    shapeCasts_S1_S1x1 broadcasts_S1x1_S1024x1 q 0).trans ?_
  unfold Cert.DeepFM.deep
  refine congrArg (fun X => Cert.DeepFM.layer X _ _ 0) (funext fun k => ?_)
  refine (layer_at dot_S1024x1024_S1024x512_S1024x512_1_0_0_1_n_n rfl rfl rfl rfl rfl rfl rfl rfl _ x5 x6
    shapeCasts_S1_S1x1 broadcasts_S1x1_S1024x512 q k).trans ?_
  refine congrArg (fun X => Cert.DeepFM.layer X _ _ k) (funext fun k' => ?_)
  exact layer_at dot_S1024x1805_S1805x1024_S1024x1024_1_0_0_1_n_n rfl rfl rfl rfl rfl rfl rfl rfl x1 x3 x4
    shapeCasts_S1_S1x1 broadcasts_S1x1_S1024x1024 q k'

/-- Entry `(u, v, q)` of the body's stored value (`u`, `v` can only be 0) is the score of the example in row `q`. -/
theorem body_at (x0 : Vec Ideal S1024x28x64 .f32) (x1 : Vec Ideal S1024x1805 .bf16) (x2 : Vec Ideal S1024x1 .f32)
    (x3 : Vec Ideal S1805x1024 .bf16) (x4 : Vec Ideal S1 .f32) (x5 : Vec Ideal S1024x512 .bf16) (x6 : Vec Ideal S1 .f32)
    (x7 : Vec Ideal S512x1 .bf16) (x8 : Vec Ideal S1 .f32) (u v : Fin 1) (q : Fin 1024) :
    k0_pay1 (F := Ideal) (k0_pay2 x0) (k0_pay3 x1 x3 x4 x5 x6 x7) x8 x2 (ix3 u v q)
      = Cert.DeepFM.score (fun n e => x0 (ix3 q n e)) (x2 (ix2 q (0 : Fin 1))) (fun k => x1 (ix2 q k))
          (fun k j => x3 (ix2 k j)) (x4 (ix1 (0 : Fin 1))) (fun k j => x5 (ix2 k j)) (x6 (ix1 (0 : Fin 1)))
          (fun k j => x7 (ix2 k j)) (x8 (ix1 (0 : Fin 1))) := by
  have hv : v = 0 := Subsingleton.elim _ _
  subst hv
  unfold k0_pay1
  -- the stored [1, 1, 1024] value at (u, 0, q) is the [1, 1024] row at (0, q), the transposed column at (q, 0)
  refine (shapeCast_ab_1ab_apply (a := 1) (b := 1024) _ shapeCasts_S1x1024_S1x1x1024 u 0 q).trans ?_
  refine (transpose_ix2_apply (a := 1024) (b := 1) _ transposes_S1024x1_p1_0_S1x1024 0 q).trans ?_
  -- there it is the logistic function of (deep + first) + pair, summand by summand
  exact congrArg Ideal.logistic (congrArg₂ (fun a b => a + b)
    (congrArg₂ (fun a b => a + b) (deep_at x1 x3 x4 x5 x6 x7 x8 q 0)
      (congrFun (shapeCast_self x2 shapeCasts_S1024x1_S1024x1) (ix2 q (0 : Fin 1))))
    (pair_at x0 q 0))

end Cert.DeepFM.Body

end
-- ==== Proof.ScoreRows.lean ====
/-
  The score of example `r` of a batch of 16384, from whole arrays.

  The batch's data are arrays with the example as the leading axis: the joined embeddings `[16384, 28, 64]`, the
  first-order column `[16384, 1]`, the joined feature matrix `[16384, 1805]`; the weights `[1805, 1024]`,
  `[1024, 512]`, `[512, 1]` and the three one-entry biases are shared by all examples. Example `r`'s score reads
  row `r` of each batch array.
-/
import proofs.«178519_j61761629717133_2_alg».proof.Proof.Score

noncomputable section

namespace Cert.DeepFM

open Idealize.ShloMosaic Idealize.ShloMosaic.ValueIdx

/-- The score of example `r`: `score` of row `r` of the three batch arrays and of the shared weights and biases. -/
def rowScore (cat : (⟨3, ![16384, 28, 64]⟩ : Shape).Idx → EReal) (first : (⟨2, ![16384, 1]⟩ : Shape).Idx → EReal)
    (feat : (⟨2, ![16384, 1805]⟩ : Shape).Idx → EReal) (w0 : (⟨2, ![1805, 1024]⟩ : Shape).Idx → EReal)
    (b0 : (⟨1, ![1]⟩ : Shape).Idx → EReal) (w1 : (⟨2, ![1024, 512]⟩ : Shape).Idx → EReal)
    (b1 : (⟨1, ![1]⟩ : Shape).Idx → EReal) (w2 : (⟨2, ![512, 1]⟩ : Shape).Idx → EReal)
    (b2 : (⟨1, ![1]⟩ : Shape).Idx → EReal) (r : Fin 16384) : EReal :=
  score (fun n e => cat (ix3 r n e)) (first (ix2 r (0 : Fin 1))) (fun k => feat (ix2 r k))
    (fun k j => w0 (ix2 k j)) (b0 (ix1 (0 : Fin 1))) (fun k j => w1 (ix2 k j)) (b1 (ix1 (0 : Fin 1)))
    (fun k j => w2 (ix2 k j)) (b2 (ix1 (0 : Fin 1)))

end Cert.DeepFM

end
-- ==== Proof.KernelArray.lean ====
/-
  The kernel's output array after its run, as one function of the arrays it is launched on.

  The grid has 16 points; point `t` stages rows `1024·t … 1024·t + 1023` of the three batch arrays (embeddings,
  features, first-order column), the whole of each weight matrix and bias, and writes block `(t, 0, ·)` of the
  `[16, 1, 1024]` output. Entry `q` of what it writes is the score of the example in row `q` of its blocks, that is of
  example `1024·t + q` of the batch. The 16 blocks tile the output, so entry `(a, 0, b)` of the final array is the score
  of example `1024·a + b`.
-/
import proofs.«178519_j61761629717133_2_alg».proof.Proof.Gen.KernelIdeal.Frame
import proofs.«178519_j61761629717133_2_alg».proof.Proof.KernelBody
import proofs.«178519_j61761629717133_2_alg».proof.Proof.ScoreRows
import Idealize.ShloMosaic.Lib.Pipeline.Value

set_option maxRecDepth 16384

noncomputable section

namespace Cert.DeepFM.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The score of example `r` from the arrays as the region finds them. -/
def exampleScore (c : Dev nD) (r : Fin 16384) : EReal :=
  Cert.DeepFM.rowScore (V m c main_v17) (V m c main_v25) (V m c main_v29) (V m c main_v30) (V m c main_arg6)
    (V m c main_v31) (V m c main_arg8) (V m c main_v32) (V m c main_arg10) r

/-- The example whose score sits at entry `(a, ·, b)` of the output: `1024·a + b`. -/
def exampleOf (j : S16x1x1024.Idx) : Fin 16384 :=
  ⟨(j 0).val * 1024 + (j 2).val, by
    have h0 : (j 0).val < 16 := (j 0).isLt
    have h2 : (j 2).val < 1024 := (j 2).isLt
    omega⟩

/-- What the output array ends holding: at `(a, ·, b)` the score of example `1024·a + b`. -/
def outArray (c : Dev nD) : S16x1x1024.Idx → EReal := fun j => exampleScore m c (exampleOf j)

/-- The printed index maps over the 16 grid points: the three batch windows and the output move with the point along
    their leading axis; the weights and biases stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 3) = t.val ∧ win0_9.index t (1 : Fin 3) = 0 ∧ win0_9.index t (2 : Fin 3) = 0 :=
  (by decide +kernel : ∀ t : Fin grid0.N, _)

/-! ## Where a block's entry sits in its array -/

/-- Row `q` of point `t`'s embedding block is example `1024·t + q` of the batch. -/
theorem emb_cat (t : Fin cfg0.N) (q : Fin 1024) (n : Fin 28) (e : Fin 64) (r : Fin 16384) (hr : r.val = t.val * 1024 + q.val) :
    ((cfg0.win 0).blk t).view.emb (ix3 q n e) = ix3 r n e := by
  obtain ⟨f0, f1, f2, -⟩ := idx_facts t
  funext a; apply Fin.ext
  match a with
  | ⟨0, _⟩ => show win0_0.index t (0 : Fin 3) * 1024 + 1 * q.val = r.val; omega
  | ⟨1, _⟩ => show win0_0.index t (1 : Fin 3) * 28 + 1 * n.val = n.val; omega
  | ⟨2, _⟩ => show win0_0.index t (2 : Fin 3) * 64 + 1 * e.val = e.val; omega

/-- Row `q` of point `t`'s feature block is row `1024·t + q` of the feature matrix. -/
theorem emb_feat (t : Fin cfg0.N) (q : Fin 1024) (k : Fin 1805) (r : Fin 16384) (hr : r.val = t.val * 1024 + q.val) :
    ((cfg0.win 1).blk t).view.emb (ix2 q k) = ix2 r k := by
  obtain ⟨-, -, -, f0, f1, -⟩ := idx_facts t
  funext a; apply Fin.ext
  match a with
  | ⟨0, _⟩ => show win0_1.index t (0 : Fin 2) * 1024 + 1 * q.val = r.val; omega
  | ⟨1, _⟩ => show win0_1.index t (1 : Fin 2) * 1805 + 1 * k.val = k.val; omega

/-- Row `q` of point `t`'s first-order block is row `1024·t + q` of the first-order column. -/
theorem emb_first (t : Fin cfg0.N) (q : Fin 1024) (u : Fin 1) (r : Fin 16384) (hr : r.val = t.val * 1024 + q.val) :
    ((cfg0.win 2).blk t).view.emb (ix2 q u) = ix2 r u := by
  obtain ⟨-, -, -, -, -, f0, f1, -⟩ := idx_facts t
  funext a; apply Fin.ext
  match a with
  | ⟨0, _⟩ => show win0_2.index t (0 : Fin 2) * 1024 + 1 * q.val = r.val; omega
  | ⟨1, _⟩ => show win0_2.index t (1 : Fin 2) * 1 + 1 * u.val = u.val; omega

/-- Every point stages the whole first weight matrix. -/
theorem emb_w0 (t : Fin cfg0.N) (k : Fin 1805) (j : Fin 1024) : ((cfg0.win 3).blk t).view.emb (ix2 k j) = ix2 k j := by
  obtain ⟨-, -, -, -, -, -, -, f0, f1, -⟩ := idx_facts t
  funext a; apply Fin.ext
  match a with
  | ⟨0, _⟩ => show win0_3.index t (0 : Fin 2) * 1805 + 1 * k.val = k.val; omega
  | ⟨1, _⟩ => show win0_3.index t (1 : Fin 2) * 1024 + 1 * j.val = j.val; omega

theorem emb_b0 (t : Fin cfg0.N) (u : Fin 1) : ((cfg0.win 4).blk t).view.emb (ix1 u) = ix1 u := by
  obtain ⟨-, -, -, -, -, -, -, -, -, f0, -⟩ := idx_facts t
  funext a; apply Fin.ext
  match a with
  | ⟨0, _⟩ => show win0_4.index t (0 : Fin 1) * 1 + 1 * u.val = u.val; omega

/-- Every point stages the whole second weight matrix. -/
theorem emb_w1 (t : Fin cfg0.N) (k : Fin 1024) (j : Fin 512) : ((cfg0.win 5).blk t).view.emb (ix2 k j) = ix2 k j := by
  obtain ⟨-, -, -, -, -, -, -, -, -, -, f0, f1, -⟩ := idx_facts t
  funext a; apply Fin.ext
  match a with
  | ⟨0, _⟩ => show win0_5.index t (0 : Fin 2) * 1024 + 1 * k.val = k.val; omega
  | ⟨1, _⟩ => show win0_5.index t (1 : Fin 2) * 512 + 1 * j.val = j.val; omega

theorem emb_b1 (t : Fin cfg0.N) (u : Fin 1) : ((cfg0.win 6).blk t).view.emb (ix1 u) = ix1 u := by
  obtain ⟨-, -, -, -, -, -, -, -, -, -, -, -, f0, -⟩ := idx_facts t
  funext a; apply Fin.ext
  match a with
  | ⟨0, _⟩ => show win0_6.index t (0 : Fin 1) * 1 + 1 * u.val = u.val; omega

/-- Every point stages the whole third weight matrix. -/
theorem emb_w2 (t : Fin cfg0.N) (k : Fin 512) (j : Fin 1) : ((cfg0.win 7).blk t).view.emb (ix2 k j) = ix2 k j := by
  obtain ⟨-, -, -, -, -, -, -, -, -, -, -, -, -, f0, f1, -⟩ := idx_facts t
  funext a; apply Fin.ext
  match a with
  | ⟨0, _⟩ => show win0_7.index t (0 : Fin 2) * 512 + 1 * k.val = k.val; omega
  | ⟨1, _⟩ => show win0_7.index t (1 : Fin 2) * 1 + 1 * j.val = j.val; omega

theorem emb_b2 (t : Fin cfg0.N) (u : Fin 1) : ((cfg0.win 8).blk t).view.emb (ix1 u) = ix1 u := by
  obtain ⟨-, -, -, -, -, -, -, -, -, -, -, -, -, -, -, f0, -⟩ := idx_facts t
  funext a; apply Fin.ext
  match a with
  | ⟨0, _⟩ => show win0_8.index t (0 : Fin 1) * 1 + 1 * u.val = u.val; omega

/-- Entry `q` of point `t`'s output block sits at the place of example `1024·t + q`. -/
theorem exampleOf_emb (t : Fin cfg0.N) (u v : Fin 1) (q : Fin 1024) :
    (exampleOf (((cfg0.win 9).blk t).view.emb (ix3 u v q))).val = t.val * 1024 + q.val := by
  obtain ⟨-, -, -, -, -, -, -, -, -, -, -, -, -, -, -, -, f0, f1, f2⟩ := idx_facts t
  show (win0_9.index t (0 : Fin 3) * 1 + 1 * u.val) * 1024 + (win0_9.index t (2 : Fin 3) * 1024 + 1 * q.val) = t.val * 1024 + q.val
  have hu : u.val = 0 := by omega
  omega

/-! ## A block's entry is an entry of the array the region finds -/

theorem read_cat (c : Dev nD) (t : Fin cfg0.N) (q : Fin 1024) (n : Fin 28) (e : Fin 64) (r : Fin 16384)
    (hr : r.val = t.val * 1024 + q.val) : iblk m c 0 t (ix3 q n e) = V m c main_v17 (ix3 r n e) :=
  congrArg (V m c main_v17) (emb_cat t q n e r hr)

theorem read_feat (c : Dev nD) (t : Fin cfg0.N) (q : Fin 1024) (k : Fin 1805) (r : Fin 16384)
    (hr : r.val = t.val * 1024 + q.val) : iblk m c 1 t (ix2 q k) = V m c main_v29 (ix2 r k) :=
  congrArg (V m c main_v29) (emb_feat t q k r hr)

theorem read_first (c : Dev nD) (t : Fin cfg0.N) (q : Fin 1024) (r : Fin 16384)
    (hr : r.val = t.val * 1024 + q.val) : iblk m c 2 t (ix2 q (0 : Fin 1)) = V m c main_v25 (ix2 r (0 : Fin 1)) :=
  congrArg (V m c main_v25) (emb_first t q 0 r hr)

theorem read_w0 (c : Dev nD) (t : Fin cfg0.N) (k : Fin 1805) (j : Fin 1024) :
    iblk m c 3 t (ix2 k j) = V m c main_v30 (ix2 k j) :=
  congrArg (V m c main_v30) (emb_w0 t k j)

theorem read_b0 (c : Dev nD) (t : Fin cfg0.N) : iblk m c 4 t (ix1 (0 : Fin 1)) = V m c main_arg6 (ix1 (0 : Fin 1)) :=
  congrArg (V m c main_arg6) (emb_b0 t 0)

theorem read_w1 (c : Dev nD) (t : Fin cfg0.N) (k : Fin 1024) (j : Fin 512) :
    iblk m c 5 t (ix2 k j) = V m c main_v31 (ix2 k j) :=
  congrArg (V m c main_v31) (emb_w1 t k j)

theorem read_b1 (c : Dev nD) (t : Fin cfg0.N) : iblk m c 6 t (ix1 (0 : Fin 1)) = V m c main_arg8 (ix1 (0 : Fin 1)) :=
  congrArg (V m c main_arg8) (emb_b1 t 0)

theorem read_w2 (c : Dev nD) (t : Fin cfg0.N) (k : Fin 512) (j : Fin 1) :
    iblk m c 7 t (ix2 k j) = V m c main_v32 (ix2 k j) :=
  congrArg (V m c main_v32) (emb_w2 t k j)

theorem read_b2 (c : Dev nD) (t : Fin cfg0.N) : iblk m c 8 t (ix1 (0 : Fin 1)) = V m c main_arg10 (ix1 (0 : Fin 1)) :=
  congrArg (V m c main_arg10) (emb_b2 t 0)

/-! ## What a point writes back -/

/-- The body's result at point `t`, read at `(u, v, q)`: the score of the example in row `q` of the point's blocks. -/
theorem body_at_point (c : Dev nD) (t : Fin cfg0.N) (u v : Fin 1) (q : Fin 1024) :
    k0_pay1 (F := Ideal) (k0_pay2 (iblk m c 0 t)) (k0_pay3 (iblk m c 1 t) (iblk m c 3 t) (iblk m c 4 t) (iblk m c 5 t) (iblk m c 6 t) (iblk m c 7 t)) (iblk m c 8 t) (iblk m c 2 t) (ix3 u v q)
      = Cert.DeepFM.score (fun n e => iblk m c 0 t (ix3 q n e)) (iblk m c 2 t (ix2 q (0 : Fin 1))) (fun k => iblk m c 1 t (ix2 q k))
          (fun k j => iblk m c 3 t (ix2 k j)) (iblk m c 4 t (ix1 (0 : Fin 1))) (fun k j => iblk m c 5 t (ix2 k j)) (iblk m c 6 t (ix1 (0 : Fin 1)))
          (fun k j => iblk m c 7 t (ix2 k j)) (iblk m c 8 t (ix1 (0 : Fin 1))) :=
  Cert.DeepFM.Body.body_at (iblk m c 0 t) (iblk m c 1 t) (iblk m c 2 t) (iblk m c 3 t) (iblk m c 4 t) (iblk m c 5 t)
    (iblk m c 6 t) (iblk m c 7 t) (iblk m c 8 t) u v q

/-- The rows of point `t`'s blocks are rows `1024·t + q` of the batch arrays, and its weight and bias blocks are the
    whole arrays: the score of the example in row `q` of the blocks is the score of example `r = 1024·t + q`. -/
theorem score_at_point (c : Dev nD) (t : Fin cfg0.N) (q : Fin 1024) (r : Fin 16384) (hr : r.val = t.val * 1024 + q.val) :
    Cert.DeepFM.score (fun n e => iblk m c 0 t (ix3 q n e)) (iblk m c 2 t (ix2 q (0 : Fin 1))) (fun k => iblk m c 1 t (ix2 q k))
          (fun k j => iblk m c 3 t (ix2 k j)) (iblk m c 4 t (ix1 (0 : Fin 1))) (fun k j => iblk m c 5 t (ix2 k j)) (iblk m c 6 t (ix1 (0 : Fin 1)))
          (fun k j => iblk m c 7 t (ix2 k j)) (iblk m c 8 t (ix1 (0 : Fin 1)))
      = exampleScore m c r := by
  have e0 : (fun (n : Fin 28) (e : Fin 64) => iblk m c 0 t (ix3 q n e)) = fun n e => V m c main_v17 (ix3 r n e) :=
    funext fun n => funext fun e => read_cat m c t q n e r hr
  have e1 : (fun (k : Fin 1805) => iblk m c 1 t (ix2 q k)) = fun k => V m c main_v29 (ix2 r k) :=
    funext fun k => read_feat m c t q k r hr
  have e3 : (fun (k : Fin 1805) (j : Fin 1024) => iblk m c 3 t (ix2 k j)) = fun k j => V m c main_v30 (ix2 k j) :=
    funext fun k => funext fun j => read_w0 m c t k j
  have e5 : (fun (k : Fin 1024) (j : Fin 512) => iblk m c 5 t (ix2 k j)) = fun k j => V m c main_v31 (ix2 k j) :=
    funext fun k => funext fun j => read_w1 m c t k j
  have e7 : (fun (k : Fin 512) (j : Fin 1) => iblk m c 7 t (ix2 k j)) = fun k j => V m c main_v32 (ix2 k j) :=
    funext fun k => funext fun j => read_w2 m c t k j
  rw [e0, e1, read_first m c t q r hr, e3, read_b0 m c t, e5, read_b1 m c t, e7, read_b2 m c t]
  rfl

/-- A staging buffer that is all block: reading what the point writes back at `(u, v, q)` reads the buffer there. -/
theorem cut_at {α : Type} (t : Fin cfg0.N) (X : S1x1x1024.Idx → α) (u v : Fin 1) (q : Fin 1024) :
    (win0 9).cut (grid0.coords t) X (ix3 u v q) = X (ix3 u v q) :=
  congrArg X (funext fun a => Fin.ext (by match a with | ⟨0, _⟩ => rfl | ⟨1, _⟩ => rfl | ⟨2, _⟩ => rfl))

/-- Reading, through point `t`'s output block, an array that holds at each place a function of the example whose place
    it is: the function at that example. -/
theorem read_by_example (g : Fin 16384 → EReal) (t : Fin cfg0.N) (u v : Fin 1) (q : Fin 1024) :
    ((cfg0.win 9).blk t).view.read (Elt Ideal) (fun j : S16x1x1024.Idx => g (exampleOf j)) (ix3 u v q)
      = g (exampleOf (((cfg0.win 9).blk t).view.emb (ix3 u v q))) := rfl

/-- Block `t` of `outArray`, read at `(u, v, q)`, is the score of the example whose place that entry is. -/
theorem read_out (c : Dev nD) (t : Fin cfg0.N) (u v : Fin 1) (q : Fin 1024) :
    ((cfg0.win 9).blk t).view.read (Elt Ideal) (outArray m c) (ix3 u v q)
      = exampleScore m c (exampleOf (((cfg0.win 9).blk t).view.emb (ix3 u v q))) :=
  read_by_example (exampleScore m c) t u v q

/-- WHAT POINT `t` WRITES BACK is block `t` of `outArray`. -/
theorem flushed_eq (c : Dev nD) (t : Fin cfg0.N) :
    (dats m 0 c).flushed 9 t = ((cfg0.win 9).blk t).view.read (Elt Ideal) (outArray m c) := by
  show (cfg0.win 9).cut (grid0.coords t) ((dats m 0 c).after 9 t) = _
  rw [after0_9]
  unfold out0_9
  rw [View.canon_unit_zero hz3]
  simp only [View.ld_unit_zero (S := S1024x28x64) hz3, View.ld_unit_zero (S := S1024x1805) hz2,
    View.ld_unit_zero (S := S1805x1024) hz2, View.ld_unit_zero (S := S1) hz1, View.ld_unit_zero (S := S1024x512) hz2,
    View.ld_unit_zero (S := S512x1) hz2, View.ld_unit_zero (S := S1024x1) hz2]
  funext y
  obtain ⟨u, v, q, rfl⟩ : ∃ (u : Fin 1) (v : Fin 1) (q : Fin 1024), y = ix3 u v q := ⟨y 0, y 1, y 2, eq_ix3 y⟩
  exact (cut_at t _ u v q).trans ((body_at_point m c t u v q).trans
    ((score_at_point m c t q (exampleOf (((cfg0.win 9).blk t).view.emb (ix3 u v q))) (exampleOf_emb t u v q)).trans
      (read_out m c t u v q).symm))

/-! ## The 16 blocks tile the output -/

/-- An index of the output is in point `t`'s block iff each coordinate is in the block's range on its axis. -/
theorem mem_blk (t : Fin cfg0.N) (i : S16x1x1024.Idx) :
    i ∈ ((cfg0.win 9).blk t).view.set ↔ ∀ a : Fin 3, win0_9.index t a * S1x1x1024.size a ≤ (i a).val
      ∧ (i a).val < win0_9.index t a * S1x1x1024.size a + S1x1x1024.size a := by
  show i ∈ ((View.whole main_v33).slice (win0_9.rect t)).set ↔ _
  rw [View.set_slice_whole, Rect.mem_set_unit]
  exact Iff.rfl

/-- Every entry `(a, ·, b)` of the output is in the block of point `a`. -/
theorem cover (i : S16x1x1024.Idx) :
    ∃ t : Fin cfg0.N, (cfg0.win 9).flush t = true ∧ i ∈ ((cfg0.win 9).blk t).view.set := by
  have hi0 : (i 0).val < 16 := (i 0).isLt
  have hi1 : (i 1).val < 1 := (i 1).isLt
  have hi2 : (i 2).val < 1024 := (i 2).isLt
  have hN : cfg0.N = 16 := N_0
  obtain ⟨t, ht⟩ : ∃ t : Fin cfg0.N, t.val = (i 0).val := ⟨⟨(i 0).val, by rw [hN]; exact hi0⟩, rfl⟩
  refine ⟨t, flush0_9 t, ?_⟩
  obtain ⟨-, -, -, -, -, -, -, -, -, -, -, -, -, -, -, -, f0, f1, f2⟩ := idx_facts t
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 1024 ≤ (i 2).val ∧ (i 2).val < win0_9.index t (2 : Fin 3) * 1024 + 1024; omega

/-- THE OUTPUT ARRAY after the run: at `(a, ·, b)` the score of example `1024·a + b`. -/
theorem final (c : Dev nD) : (dats m 0 c).arrAt 9 cfg0.N = outArray m c :=
  (dats m 0 c).arrAt_eq_of_cover 9 (outArray m c) (fun t _ => flushed_eq m c t) cover

end Cert.DeepFM.Array

end
-- ==== Proof.ResultColumn.lean ====
/-
  The kernel program's result: the `[16, 1, 1024]` output array of the region, reshaped to a `[16384, 1]` column.

  Both arrays list the same 16384 numbers in the same row-major order, so entry `(r, 0)` of the column is entry
  `(r / 1024, 0, r % 1024)` of the region's output.
-/
import proofs.«178519_j61761629717133_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.DeepFM.Tail

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- If the region's output array ends holding `G`, the program's result column holds, at `(r, u)`, the entry
    `(r / 1024, 0, r % 1024)` of `G`. -/
theorem result_at (c : Dev nD) (G : S16x1x1024.Idx → EReal) (hG : (dats m 0 c).arrAt 9 cfg0.N = G)
    (r : Fin 16384) (u : Fin 1) (a : Fin 16) (b : Fin 1024) (hr : r.val = a.val * 1024 + b.val) :
    Pipeline.afterTail₀ cfgs (dats m) 0 (V0 m) [hostOps1] c main_v34 (ix2 r u) = G (ix3 a (0 : Fin 1) b) := by
  -- the one operation after the region reshapes the region's output array into the result column
  unfold Pipeline.afterTail₀
  show StableHlo.after hostOps1 _ (Proc.devRef .tc main_v34) (ix2 r u) = _
  after_results
  show shapeCast S16384x1 (Pipeline.withArrays spec0 c (V0 m c) (fun w => (dats m 0 c).arrAt w cfg0.N)
      (Proc.devRef .tc (Pipeline.arrRef spec0 9))) shapeCasts_S16x1x1024_S16384x1 (ix2 r u) = _
  rw [Pipeline.withArrays_arr spec0 launch0.win.arr_inj c _ _ 9, hG]
  -- (r, u) in [16384, 1] and (a, 0, b) in [16, 1, 1024] have the same row-major position: r = a · 1024 + b, u = 0
  refine shapeCast_apply G shapeCasts_S16x1x1024_S16384x1 (ix2 r u) (ix3 a (0 : Fin 1) b) ?_
  rw [Shape.rowMajor_val_two, Shape.rowMajor_val_three]
  show (a.val * 1 + 0) * 1024 + b.val = r.val * 1 + u.val
  have hu : u.val = 0 := by omega
  omega

end Cert.DeepFM.Tail

end
-- ==== Proof.RegionInputs.lean ====
/-
  The arrays the kernel's region is launched on, as functions of the program's arguments.

  Before the region the kernel program builds, with the same host operations as the reference, the joined embedding
  array, the first-order column and the joined feature matrix; it also rounds the feature matrix and the three weight
  matrices to a narrower float format, which changes nothing over the extended reals. So the three batch arrays are
  the reference's own intermediate stages of the same arguments, and the weight arrays are the arguments themselves.
-/
import proofs.«178519_j61761629717133_2_alg».proof.Proof.Gen.KernelIdeal.Frame
import proofs.«178519_j61761629717133_2_alg».proof.Proof.Gen.ReferenceIdeal.Read
import Idealize.ShloMosaic.Lib.StableHlo.Run

set_option maxRecDepth 16384

noncomputable section

namespace Cert.DeepFM.Inputs

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The joined embedding array at the region's entry is the reference's joined-embedding stage of the arguments. -/
theorem cat_eq (c : Dev nD) :
    V m c main_v17 = Cert.ReferenceIdeal.Read.val_main_v17 (F := Ideal) (m ((c : Thread nD τ).loc main_arg1))
      (m ((c : Thread nD τ).loc main_arg2)) (m ((c : Thread nD τ).loc main_arg4)) := by
  show StableHlo.after hostOps0 (fun b => m (c, b)) (Proc.devRef .tc main_v17) = _
  after_results_simp
  rfl

/-- The first-order column at the region's entry is the reference's first-order stage of the arguments. -/
theorem first_eq (c : Dev nD) :
    V m c main_v25 = Cert.ReferenceIdeal.Read.val_main_v25 (F := Ideal) (m ((c : Thread nD τ).loc main_arg1))
      (m ((c : Thread nD τ).loc main_arg3)) := by
  show StableHlo.after hostOps0 (fun b => m (c, b)) (Proc.devRef .tc main_v25) = _
  after_results_simp
  rfl

/-- The feature matrix at the region's entry is the reference's joined feature stage of the arguments: rounding to a
    narrower format is the identity over the extended reals. -/
theorem feat_eq (c : Dev nD) :
    V m c main_v29 = Cert.ReferenceIdeal.Read.val_main_v36 (F := Ideal) (m ((c : Thread nD τ).loc main_arg0))
      (m ((c : Thread nD τ).loc main_arg1)) (m ((c : Thread nD τ).loc main_arg2)) (m ((c : Thread nD τ).loc main_arg4)) := by
  show StableHlo.after hostOps0 (fun b => m (c, b)) (Proc.devRef .tc main_v29) = _
  after_results_simp
  rfl

/-- The three weight arrays at the region's entry are the weight arguments. -/
theorem w0_eq (c : Dev nD) : V m c main_v30 = m ((c : Thread nD τ).loc main_arg5) := by
  show StableHlo.after hostOps0 (fun b => m (c, b)) (Proc.devRef .tc main_v30) = _
  after_results_simp
  rfl

theorem w1_eq (c : Dev nD) : V m c main_v31 = m ((c : Thread nD τ).loc main_arg7) := by
  show StableHlo.after hostOps0 (fun b => m (c, b)) (Proc.devRef .tc main_v31) = _
  after_results_simp
  rfl

theorem w2_eq (c : Dev nD) : V m c main_v32 = m ((c : Thread nD τ).loc main_arg9) := by
  show StableHlo.after hostOps0 (fun b => m (c, b)) (Proc.devRef .tc main_v32) = _
  after_results_simp
  rfl

end Cert.DeepFM.Inputs

end
-- ==== Proof.ReferenceRow.lean ====
/-
  The reference program's result, one example at a time.

  Row `r` of the reference's result is the score of example `r`: its 28 embedding vectors are row `r` of the joined
  embedding array, its first-order term entry `(r, 0)` of the first-order column, its feature row is row `r` of the
  joined feature matrix; the three weight matrices and the three one-entry biases are the arguments themselves.
-/
import proofs.«178519_j61761629717133_2_alg».proof.Proof.Gen.ReferenceIdeal.Read
import proofs.«178519_j61761629717133_2_alg».proof.Proof.Score

noncomputable section

namespace Cert.DeepFM.RefSide

open Cert.ReferenceIdeal Cert.ReferenceIdeal.Read Idealize.ShloMosaic Idealize.ShloMosaic.ValueIdx

section Stages

variable (x0 : (⟨S16384x13, .f32⟩ : BufTy).Contents (Elt Ideal)) (x1 : (⟨S16384x26, .i32⟩ : BufTy).Contents (Elt Ideal))
  (x2 : (⟨S16384x2x20, .i32⟩ : BufTy).Contents (Elt Ideal)) (x3 : (⟨S1000000x1, .f32⟩ : BufTy).Contents (Elt Ideal))
  (x4 : (⟨S1000000x64, .f32⟩ : BufTy).Contents (Elt Ideal)) (x5 : (⟨S1805x1024, .f32⟩ : BufTy).Contents (Elt Ideal))
  (x6 : (⟨S1, .f32⟩ : BufTy).Contents (Elt Ideal)) (x7 : (⟨S1024x512, .f32⟩ : BufTy).Contents (Elt Ideal))
  (x8 : (⟨S1, .f32⟩ : BufTy).Contents (Elt Ideal)) (x9 : (⟨S512x1, .f32⟩ : BufTy).Contents (Elt Ideal))
  (x10 : (⟨S1, .f32⟩ : BufTy).Contents (Elt Ideal))

/-! ### The deep part, one layer at a time

Each layer is a matrix product read as a sum of products, plus the layer's one bias (a one-entry array spread over the
whole result), then the maximum with a zero word. Read at entry `(r, j)`, the product runs over row `r` of the layer's
input and column `j` of its weights. -/

/-- First layer: entry `(r, j)` of the first rectified stage is output `j` of the layer applied to feature row `r`. -/
theorem layer1_row (r : Fin 16384) (j : Fin 1024) :
    val_main_v41 (F := Ideal) x0 x1 x2 x4 x5 x6 (ix2 r j)
      = Cert.DeepFM.layer (fun k => val_main_v36 (F := Ideal) x0 x1 x2 x4 (ix2 r k)) (fun k j => x5 (ix2 k j))
          (x6 (ix1 (0 : Fin 1))) j := by
  have el : ∀ k : Fin 1805, lidx_main_v37 (ix2 r j) k = ix2 r k := fun k =>
    funext fun a => Fin.ext (by match a with | ⟨0, _⟩ => rfl | ⟨1, _⟩ => rfl)
  have er : ∀ k : Fin 1805, ridx_main_v37 (ix2 r j) k = ix2 k j := fun k =>
    funext fun a => Fin.ext (by match a with | ⟨0, _⟩ => rfl | ⟨1, _⟩ => rfl)
  have eb : idx_main_v38 (idx_main_v39 (ix2 r j)) = ix1 (0 : Fin 1) :=
    funext fun a => Fin.ext (by match a with | ⟨0, _⟩ => rfl)
  rw [val_main_v41_apply, val_main_v40_apply, val_main_v37_apply, val_main_v39_apply, val_main_v38_apply,
    val_main_call0_v0_apply, val_main_call0_cst_apply, eb]
  simp only [el, er]
  rfl

/-- Second layer: entry `(r, j)` of the second rectified stage is output `j` of the layer applied to the first layer's
    outputs for example `r`. -/
theorem layer2_row (r : Fin 16384) (j : Fin 512) :
    val_main_v46 (F := Ideal) x0 x1 x2 x4 x5 x6 x7 x8 (ix2 r j)
      = Cert.DeepFM.layer
          (Cert.DeepFM.layer (fun k => val_main_v36 (F := Ideal) x0 x1 x2 x4 (ix2 r k)) (fun k j => x5 (ix2 k j))
            (x6 (ix1 (0 : Fin 1))))
          (fun k j => x7 (ix2 k j)) (x8 (ix1 (0 : Fin 1))) j := by
  have el : ∀ k : Fin 1024, lidx_main_v42 (ix2 r j) k = ix2 r k := fun k =>
    funext fun a => Fin.ext (by match a with | ⟨0, _⟩ => rfl | ⟨1, _⟩ => rfl)
  have er : ∀ k : Fin 1024, ridx_main_v42 (ix2 r j) k = ix2 k j := fun k =>
    funext fun a => Fin.ext (by match a with | ⟨0, _⟩ => rfl | ⟨1, _⟩ => rfl)
  have eb : idx_main_v43 (idx_main_v44 (ix2 r j)) = ix1 (0 : Fin 1) :=
    funext fun a => Fin.ext (by match a with | ⟨0, _⟩ => rfl)
  rw [val_main_v46_apply, val_main_v45_apply, val_main_v42_apply, val_main_v44_apply, val_main_v43_apply,
    val_main_call1_v0_apply, val_main_call1_cst_apply, eb]
  simp only [el, er, layer1_row]
  rfl

/-- Third layer: entry `(r, u)` of the third rectified stage is output `u` of the layer applied to the second layer's
    outputs for example `r`. -/
theorem layer3_row (r : Fin 16384) (u : Fin 1) :
    val_main_v51 (F := Ideal) x0 x1 x2 x4 x5 x6 x7 x8 x9 x10 (ix2 r u)
      = Cert.DeepFM.layer
          (Cert.DeepFM.layer
            (Cert.DeepFM.layer (fun k => val_main_v36 (F := Ideal) x0 x1 x2 x4 (ix2 r k)) (fun k j => x5 (ix2 k j))
              (x6 (ix1 (0 : Fin 1))))
            (fun k j => x7 (ix2 k j)) (x8 (ix1 (0 : Fin 1))))
          (fun k j => x9 (ix2 k j)) (x10 (ix1 (0 : Fin 1))) u := by
  have el : ∀ k : Fin 512, lidx_main_v47 (ix2 r u) k = ix2 r k := fun k =>
    funext fun a => Fin.ext (by match a with | ⟨0, _⟩ => rfl | ⟨1, _⟩ => rfl)
  have er : ∀ k : Fin 512, ridx_main_v47 (ix2 r u) k = ix2 k u := fun k =>
    funext fun a => Fin.ext (by match a with | ⟨0, _⟩ => rfl | ⟨1, _⟩ => rfl)
  have eb : idx_main_v48 (idx_main_v49 (ix2 r u)) = ix1 (0 : Fin 1) :=
    funext fun a => Fin.ext (by match a with | ⟨0, _⟩ => rfl)
  rw [val_main_v51_apply, val_main_v50_apply, val_main_v47_apply, val_main_v49_apply, val_main_v48_apply,
    val_main_call2_v0_apply, val_main_call2_cst_apply, eb]
  simp only [el, er, layer2_row]
  rfl

/-! ### The second-order interaction

Entry `(r, e)` of the column sums of the embeddings, of the column sums of their squares, and of half the difference of
the squared sum and the sum of squares; every sum starts from a zero word. -/

/-- The embeddings of example `r` summed over the 28 fields, at coordinate `e`. -/
theorem fieldSum_row (r : Fin 16384) (e : Fin 64) :
    val_main_v26 (F := Ideal) x1 x2 x4 (ix2 r e)
      = Cert.DeepFM.zeroWord + ∑ n : Fin 28, val_main_v17 (F := Ideal) x1 x2 x4 (ix3 r n e) := by
  have ei : ∀ n : Fin 28, idx_main_v26 (ix2 r e) n = ix3 r n e := fun n =>
    funext fun a => Fin.ext (by match a with | ⟨0, _⟩ => rfl | ⟨1, _⟩ => rfl | ⟨2, _⟩ => rfl)
  rw [val_main_v26_apply, val_main_cst_7_apply]
  simp only [ei]
  rfl

/-- The squared embeddings of example `r` summed over the 28 fields, at coordinate `e`. -/
theorem fieldSqSum_row (r : Fin 16384) (e : Fin 64) :
    val_main_v29 (F := Ideal) x1 x2 x4 (ix2 r e)
      = Cert.DeepFM.zeroWord + ∑ n : Fin 28,
          val_main_v17 (F := Ideal) x1 x2 x4 (ix3 r n e) * val_main_v17 (F := Ideal) x1 x2 x4 (ix3 r n e) := by
  have ei : ∀ n : Fin 28, idx_main_v29 (ix2 r e) n = ix3 r n e := fun n =>
    funext fun a => Fin.ext (by match a with | ⟨0, _⟩ => rfl | ⟨1, _⟩ => rfl | ⟨2, _⟩ => rfl)
  rw [val_main_v29_apply, val_main_cst_8_apply]
  simp only [ei, val_main_v28_apply]
  rfl

/-- Half of (squared field sum minus field sum of squares) for example `r` at coordinate `e`. -/
theorem halfDiff_row (r : Fin 16384) (e : Fin 64) :
    val_main_v32 (F := Ideal) x1 x2 x4 (ix2 r e)
      = Cert.DeepFM.halfWord *
          ((Cert.DeepFM.zeroWord + ∑ n : Fin 28, val_main_v17 (F := Ideal) x1 x2 x4 (ix3 r n e))
              * (Cert.DeepFM.zeroWord + ∑ n : Fin 28, val_main_v17 (F := Ideal) x1 x2 x4 (ix3 r n e))
            - (Cert.DeepFM.zeroWord + ∑ n : Fin 28,
                val_main_v17 (F := Ideal) x1 x2 x4 (ix3 r n e) * val_main_v17 (F := Ideal) x1 x2 x4 (ix3 r n e))) := by
  rw [val_main_v32_apply, val_main_v31_apply, val_main_cst_9_apply, val_main_v30_apply, val_main_v27_apply,
    fieldSum_row, fieldSqSum_row]
  rfl

/-- Entry `(r, u)` of the interaction column is the second-order interaction of example `r`'s embeddings. -/
theorem pair_row (r : Fin 16384) (u : Fin 1) :
    val_main_v34 (F := Ideal) x1 x2 x4 (ix2 r u)
      = Cert.DeepFM.pair (fun n e => val_main_v17 (F := Ideal) x1 x2 x4 (ix3 r n e)) := by
  have e0 : idx_main_v34 (ix2 r u) = ix1 r :=
    funext fun a => Fin.ext (by match a with | ⟨0, _⟩ => rfl)
  have ei : ∀ e : Fin 64, idx_main_v33 (ix1 r) e = ix2 r e := fun e =>
    funext fun a => Fin.ext (by match a with | ⟨0, _⟩ => rfl | ⟨1, _⟩ => rfl)
  rw [val_main_v34_apply, e0, val_main_v33_apply, val_main_cst_10_apply]
  simp only [ei, halfDiff_row]
  exact Cert.DeepFM.pair_from_zero (fun n e => val_main_v17 (F := Ideal) x1 x2 x4 (ix3 r n e))

end Stages

/-- Entry `(r, u)` of the reference's result (`u` can only be 0) is the score of example `r`. -/
theorem reference_row (x0 : (⟨S16384x13, .f32⟩ : BufTy).Contents (Elt Ideal)) (x1 : (⟨S16384x26, .i32⟩ : BufTy).Contents (Elt Ideal))
    (x2 : (⟨S16384x2x20, .i32⟩ : BufTy).Contents (Elt Ideal)) (x3 : (⟨S1000000x1, .f32⟩ : BufTy).Contents (Elt Ideal))
    (x4 : (⟨S1000000x64, .f32⟩ : BufTy).Contents (Elt Ideal)) (x5 : (⟨S1805x1024, .f32⟩ : BufTy).Contents (Elt Ideal))
    (x6 : (⟨S1, .f32⟩ : BufTy).Contents (Elt Ideal)) (x7 : (⟨S1024x512, .f32⟩ : BufTy).Contents (Elt Ideal))
    (x8 : (⟨S1, .f32⟩ : BufTy).Contents (Elt Ideal)) (x9 : (⟨S512x1, .f32⟩ : BufTy).Contents (Elt Ideal))
    (x10 : (⟨S1, .f32⟩ : BufTy).Contents (Elt Ideal)) (r : Fin 16384) (u : Fin 1) :
    val_main_v59 (F := Ideal) x0 x1 x2 x3 x4 x5 x6 x7 x8 x9 x10 (ix2 r u)
      = Cert.DeepFM.score (fun n e => val_main_v17 (F := Ideal) x1 x2 x4 (ix3 r n e))
          (val_main_v25 (F := Ideal) x1 x3 (ix2 r (0 : Fin 1)))
          (fun k => val_main_v36 (F := Ideal) x0 x1 x2 x4 (ix2 r k))
          (fun k j => x5 (ix2 k j)) (x6 (ix1 (0 : Fin 1))) (fun k j => x7 (ix2 k j)) (x8 (ix1 (0 : Fin 1)))
          (fun k j => x9 (ix2 k j)) (x10 (ix1 (0 : Fin 1))) := by
  -- the second axis has one entry
  obtain rfl : u = 0 := Subsingleton.elim u 0
  rw [val_main_v59_apply, val_main_v58_apply, val_main_cst_12_apply, val_main_v57_apply, val_main_v56_apply,
    val_main_cst_11_apply, val_main_v55_apply, val_main_v54_apply, val_main_v53_apply, val_main_v52_apply,
    layer3_row, pair_row]
  simp only [Ideal.hostDivf_def, Ideal.addf_def, Ideal.hostUnary_exp_def, Ideal.hostNegf_def, Ideal.negf_def,
    Ideal.ofBits_def]
  exact Cert.DeepFM.score_regrouped (fun n e => val_main_v17 (F := Ideal) x1 x2 x4 (ix3 r n e))
    (val_main_v25 (F := Ideal) x1 x3 (ix2 r (0 : Fin 1))) (fun k => val_main_v36 (F := Ideal) x0 x1 x2 x4 (ix2 r k))
    (fun k j => x5 (ix2 k j)) (x6 (ix1 (0 : Fin 1))) (fun k j => x7 (ix2 k j)) (x8 (ix1 (0 : Fin 1)))
    (fun k j => x9 (ix2 k j)) (x10 (ix1 (0 : Fin 1)))

end Cert.DeepFM.RefSide

end
-- ==== Proof.Runs.lean ====
/-
  The two programs' runs, each ending with its result at the same column of scores.

  The kernel program's result column holds at `(r, 0)` the score of example `r` computed from the arrays its region is
  launched on; those arrays are the reference's own intermediate stages of the arguments (and the weight arguments
  themselves), and the reference's result at `(r, 0)` is the score of example `r` from exactly those stages.
-/
import proofs.«178519_j61761629717133_2_alg».proof.Proof.KernelArray
import proofs.«178519_j61761629717133_2_alg».proof.Proof.ResultColumn
import proofs.«178519_j61761629717133_2_alg».proof.Proof.RegionInputs
import proofs.«178519_j61761629717133_2_alg».proof.Proof.ReferenceRow

set_option maxRecDepth 16384

noncomputable section

namespace Cert.DeepFM.Runs

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The column of scores: at `(r, ·)` the score of example `r` from the arrays the region finds. -/
def scoreColumn (c : Dev nD) : S16384x1.Idx → EReal := fun i => Array.exampleScore m c (i 0)

/-- The kernel program's result buffer after the run is the column of scores: the region's output array holds at
    `(a, 0, b)` the score of example `1024·a + b`, and the reshape puts that entry at row `1024·a + b`. -/
theorem kernel_result (c : Dev nD) :
    Pipeline.afterTail₀ cfgs (dats m) 0 (V0 m) [hostOps1] c main_v34 = scoreColumn m c := by
  funext i
  obtain ⟨r, u, rfl⟩ : ∃ (r : Fin 16384) (u : Fin 1), i = ix2 r u := ⟨i 0, i 1, eq_ix2 i⟩
  have ha : r.val / 1024 < 16 := by have := r.isLt; omega
  have hb : r.val % 1024 < 1024 := Nat.mod_lt _ (by decide)
  refine (Tail.result_at m c (Array.outArray m c) (Array.final m c) r u ⟨r.val / 1024, ha⟩ ⟨r.val % 1024, hb⟩
    (by show r.val = r.val / 1024 * 1024 + r.val % 1024; omega)).trans ?_
  exact congrArg (Array.exampleScore m c) (Fin.ext (by show r.val / 1024 * 1024 + r.val % 1024 = r.val; omega))

/-- THE KERNEL PROGRAM'S RUN: every weakly fair execution terminates with the result buffer at the column of scores and
    the eleven arguments unchanged. -/
theorem kernel_run : θ_run defs (onTc (τ := τ) (main (F := Ideal))) ⟨m, fun _ => 0, ρ⟩ (fun r => ∀ c : Dev nD,
      r.2.mem ((c.tc : Thread nD τ).loc main_v34) = scoreColumn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).2 main_v34 (Pipeline.mem_restRefs_of main_v34 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c),
      ((h c).1 8).trans (((dats m 0 c).arrAt_in 8 rfl _).trans ((A_eq m c 8).trans (V_main_arg10 m c)))⟩)
    (run_main m ρ)

/-- The column of scores, entry by entry, in terms of the program's arguments: the arrays the region finds are the
    reference's stages of the arguments, the weights the arguments themselves. -/
theorem scoreColumn_at (c : Dev nD) (r : Fin 16384) (u : Fin 1) :
    scoreColumn m c (ix2 r u)
      = Cert.DeepFM.score
          (fun n e => Cert.ReferenceIdeal.Read.val_main_v17 (F := Ideal) (m ((c.tc : Thread nD τ).loc main_arg1)) (m ((c.tc : Thread nD τ).loc main_arg2)) (m ((c.tc : Thread nD τ).loc main_arg4)) (ix3 r n e))
          (Cert.ReferenceIdeal.Read.val_main_v25 (F := Ideal) (m ((c.tc : Thread nD τ).loc main_arg1)) (m ((c.tc : Thread nD τ).loc main_arg3)) (ix2 r (0 : Fin 1)))
          (fun k => Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg4)) (ix2 r k))
          (fun k j => m ((c.tc : Thread nD τ).loc main_arg5) (ix2 k j)) (m ((c.tc : Thread nD τ).loc main_arg6) (ix1 (0 : Fin 1)))
          (fun k j => m ((c.tc : Thread nD τ).loc main_arg7) (ix2 k j)) (m ((c.tc : Thread nD τ).loc main_arg8) (ix1 (0 : Fin 1)))
          (fun k j => m ((c.tc : Thread nD τ).loc main_arg9) (ix2 k j)) (m ((c.tc : Thread nD τ).loc main_arg10) (ix1 (0 : Fin 1))) := by
  show Cert.DeepFM.rowScore (V m c main_v17) (V m c main_v25) (V m c main_v29) (V m c main_v30) (V m c main_arg6)
    (V m c main_v31) (V m c main_arg8) (V m c main_v32) (V m c main_arg10) r = _
  rw [Inputs.cat_eq, Inputs.first_eq, Inputs.feat_eq, Inputs.w0_eq, Inputs.w1_eq, Inputs.w2_eq, V_main_arg6, V_main_arg8,
    V_main_arg10]
  rfl

/-- THE REFERENCE'S RESULT, from a memory that agrees with the kernel program's on the eleven arguments, is the same
    column of scores. -/
theorem reference_result (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Cert.ReferenceIdeal.Value.res_main_v59 m' c = scoreColumn m c := by
  rw [Cert.ReferenceIdeal.Read.val_main_v59_eq, h0, h1, h2, h3, h4, h5, h6, h7, h8, h9, h10]
  funext i
  obtain ⟨r, u, rfl⟩ : ∃ (r : Fin 16384) (u : Fin 1), i = ix2 r u := ⟨i 0, i 1, eq_ix2 i⟩
  exact (RefSide.reference_row _ _ _ _ _ _ _ _ _ _ _ r u).trans (scoreColumn_at m c r u).symm

end Cert.DeepFM.Runs

end
-- ==== Proof.lean ====
/-
  A factorisation-machine-plus-deep-network scorer as a fused accelerator kernel against its plain array program, over
  the extended reals.

  Both programs gather 28 embedding vectors per example (26 single-valued fields, 2 fields averaged over 20 entries),
  sum the 26 first-order weights, and join the embeddings with 13 dense features into a 1805-long feature row — with the
  SAME host operations, so these arrays are one function of the arguments in both. From there the kernel computes, 1024
  examples per grid point, the second-order interaction Σ_e ½·((Σ_n v)² − Σ_n v²), three layers `max (x·W + b) 0` on the
  matrix unit into zero accumulators, and the logistic function of `(deep + first) + pair`, stored as a `[1, 1024]` row
  of a `[16, 1, 1024]` array that the program finally reshapes to a `[16384, 1]` column. The reference computes the same
  per-example score with whole-batch sums and products, grouping the logit as `(first + pair) + deep`, starting each sum
  from a zero word and spelling the logistic function `1 / (1 + e^(−t))`.

  Over the extended reals a change of float format is the identity, a matrix product into a zero accumulator and a
  `dot_general` are the same finite sum of products, and addition is commutative and associative; so the two results are
  equal entry by entry, for every input — finiteness of the inputs is never used. The idealization pass rewrote nothing
  in the kernel, so `preserves` is trivial.

  Modules: Score (one example's score, and the regrouping law), ScoreRows (the score of example `r` from whole arrays),
  KernelBody (the kernel body's result at an entry), KernelArray (the region's output array after the run),
  ResultColumn (the final reshape), RegionInputs (the arrays the region finds are the reference's stages),
  ReferenceRow (the reference's result at an entry), Runs (both runs ending at one column of scores); LibPlainDot,
  LibRowsTimes, LibKeepdimsSum and LibPairStack are general lemmas about products, row sums and layout operations.
-/
import proofs.«178519_j61761629717133_2_alg».proof.Defs
import proofs.«178519_j61761629717133_2_alg».proof.Proof.Gen.Kernel
import proofs.«178519_j61761629717133_2_alg».proof.Proof.Gen.Kernel.Skeleton
import proofs.«178519_j61761629717133_2_alg».proof.Proof.Gen.Kernel.Launch
import proofs.«178519_j61761629717133_2_alg».proof.Proof.Gen.Kernel.Points
import proofs.«178519_j61761629717133_2_alg».proof.Proof.Gen.Kernel.Frame
import proofs.«178519_j61761629717133_2_alg».proof.Proof.Gen.KernelIdeal
import proofs.«178519_j61761629717133_2_alg».proof.Proof.Gen.KernelIdeal.Skeleton
import proofs.«178519_j61761629717133_2_alg».proof.Proof.Gen.KernelIdeal.Launch
import proofs.«178519_j61761629717133_2_alg».proof.Proof.Gen.KernelIdeal.Points
import proofs.«178519_j61761629717133_2_alg».proof.Proof.Gen.KernelIdeal.Frame
import proofs.«178519_j61761629717133_2_alg».proof.Proof.Gen.ReferenceIdeal
import proofs.«178519_j61761629717133_2_alg».proof.Proof.Gen.Pre_finite_inputs
import proofs.«178519_j61761629717133_2_alg».proof.Proof.Gen.ReferenceIdeal.Run
import proofs.«178519_j61761629717133_2_alg».proof.Proof.Gen.ReferenceIdeal.Read
import proofs.«178519_j61761629717133_2_alg».proof.Proof.Runs
import Idealize.ShloMosaic.Adequacy
import Idealize.ShloMosaic.Init

noncomputable section

namespace Cert.Proof

open Idealize.ShloMosaic Idealize.SL.Sem

/-- The word-level kernel program terminates, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories agreeing on the eleven arguments both programs run to the end, the arguments unchanged, with ONE
    result: the column whose entry `(r, 0)` is the score of example `r`. -/
theorem algebraic : Cert.algebraic_KernelIdeal_ReferenceIdeal := by
  intro m ρ m' ρ' _ hagree
  refine ⟨fun c => Cert.DeepFM.Runs.scoreColumn m c, Cert.DeepFM.Runs.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  exact Cert.DeepFM.Runs.reference_result m m' c h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
